-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S100x64x768 : Shape := ⟨3, ![100, 64, 768]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S100x64x768 : S_.BroadcastsInDim S100x64x768 (![] : Fin 0 → Fin S100x64x768.rank)
  reducesTo_S100x64x768_S_d0_1_2 : S100x64x768.ReducesTo [0, 1, 2] S_

variable [Facts]

def fn {F : FTy → Type} [FloatOps F] (main_arg0 : FVec F S4096x768 .f32) (main_arg1 : FVec F S100x64x768 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S100x64x768 .f32 := Host.absf main_arg1
  let main_cst_0 : FVec F S_ .f32 := constant S_ .f32 0x7F800000#32
  let main_v5 : FVec F S100x64x768 .f32 := broadcastInDim S100x64x768 ![] bcast_S_S100x64x768 main_cst_0
  let main_v6 : IVec S100x64x768 1 := cmpf .olt main_v4 main_v5
  let main_c_1 : IVec S_ 1 := constantI S_ 1 1#1
  let main_v7 : IVec S_ 1 := (fun x v => Host.reduce IntOp.andi x v reducesTo_S100x64x768_S_d0_1_2 h_S_) main_v6 main_c_1
  let main_v8 : IVec S_ 1 := andi main_v3 main_v7
  main_v8
-- ==== Kernel.lean ====
abbrev S4096x768 : Shape := ⟨2, ![4096, 768]⟩
abbrev S100x64x768 : Shape := ⟨3, ![100, 64, 768]⟩
abbrev S6400x768 : Shape := ⟨2, ![6400, 768]⟩
abbrev S_ : Shape := ⟨0, ![]⟩
abbrev S4096 : Shape := ⟨1, ![4096]⟩
abbrev S4096x1 : Shape := ⟨2, ![4096, 1]⟩
abbrev S6400 : Shape := ⟨1, ![6400]⟩
abbrev S1x6400 : Shape := ⟨2, ![1, 6400]⟩
abbrev S4096x6400 : Shape := ⟨2, ![4096, 6400]⟩
abbrev S2048x768 : Shape := ⟨2, ![2048, 768]⟩
abbrev S640x768 : Shape := ⟨2, ![640, 768]⟩
abbrev S2048x1 : Shape := ⟨2, ![2048, 1]⟩
abbrev S1x640 : Shape := ⟨2, ![1, 640]⟩
abbrev S2048x640 : Shape := ⟨2, ![2048, 640]⟩
abbrev S4096x100x64 : Shape := ⟨3, ![4096, 100, 64]⟩

abbrev nBuf : Space → Nat
  | .hbm => 15
  | .vmem => 10
  | .smem => 0
  | _ => 0

abbrev bufTy : (tb : Table) → Fin (tcTables nBuf tb) → BufTy
  | .hbm, ⟨0, _⟩ => ⟨S4096x768, .f32⟩
  | .hbm, ⟨1, _⟩ => ⟨S100x64x768, .f32⟩
  | .hbm, ⟨2, _⟩ => ⟨S6400x768, .f32⟩
  | .hbm, ⟨3, _⟩ => ⟨S4096x768, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S6400x768, .f32⟩
  | .hbm, ⟨8, _⟩ => ⟨S_, .f32⟩
  | .hbm, ⟨9, _⟩ => ⟨S6400, .f32⟩
  | .hbm, ⟨10, _⟩ => ⟨S1x6400, .f32⟩
  | .hbm, ⟨11, _⟩ => ⟨S4096x768, .bf16⟩
  | .hbm, ⟨12, _⟩ => ⟨S6400x768, .bf16⟩
  | .hbm, ⟨13, _⟩ => ⟨S4096x6400, .f32⟩
  | .hbm, ⟨14, _⟩ => ⟨S4096x100x64, .f32⟩
  | .local _ .vmem, ⟨0, _⟩ => ⟨S2048x768, .bf16⟩
  | .local _ .vmem, ⟨1, _⟩ => ⟨S2048x768, .bf16⟩
  | .local _ .vmem, ⟨2, _⟩ => ⟨S640x768, .bf16⟩
  | .local _ .vmem, ⟨3, _⟩ => ⟨S640x768, .bf16⟩
  | .local _ .vmem, ⟨4, _⟩ => ⟨S2048x1, .f32⟩
  | .local _ .vmem, ⟨5, _⟩ => ⟨S2048x1, .f32⟩
  | .local _ .vmem, ⟨6, _⟩ => ⟨S1x640, .f32⟩
  | .local _ .vmem, ⟨7, _⟩ => ⟨S1x640, .f32⟩
  | .local _ .vmem, ⟨8, _⟩ => ⟨S2048x640, .f32⟩
  | .local _ .vmem, ⟨9, _⟩ => ⟨S2048x640, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S100x64x768_S6400x768 : S100x64x768.ShapeCasts S6400x768
  reducesTo_S4096x768_S4096_d1 : S4096x768.ReducesTo [1] S4096
  h_S_ : 0 < S_.numel
  bcast_S4096_S4096x1_0 : S4096.BroadcastsInDim S4096x1 (![0] : Fin 1 → Fin S4096x1.rank)
  reducesTo_S6400x768_S6400_d1 : S6400x768.ReducesTo [1] S6400
  bcast_S6400_S1x6400_1 : S6400.BroadcastsInDim S1x6400 (![1] : Fin 1 → Fin S1x6400.rank)
  bitsLt_bf16_f32 : FTy.bits .bf16 < FTy.bits .f32
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S640x768_S640x768_0_0 : ∀ a, (![0, 0] : Fin 2 → Nat) a + S640x768.size a ≤ S640x768.size a
  h_S640x768 : 0 < S640x768.numel
  shapeCasts_S640x768_S640x768 : S640x768.ShapeCasts S640x768
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S2048x1_S2048x640 : S2048x1.Broadcasts S2048x640
  broadcasts_S1x640_S2048x640 : S1x640.Broadcasts S2048x640
  inb_S2048x640_S2048x640_0_0 : ∀ a, (![0, 0] : Fin 2 → Nat) a + S2048x640.size a ≤ S2048x640.size a
  h_S2048x640 : 0 < S2048x640.numel
  shapeCasts_S4096x6400_S4096x100x64 : S4096x6400.ShapeCasts S4096x100x64
  dot_S2048x768_S640x768_S2048x640_1_1_0_0_n_n_wf : DotDims.WF S2048x768 S640x768 S2048x640 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S4096x768.size a
  hwx0_0 : ∀ i : grid0.Coords, EltTy.bits .bf16 = 32 ∨ (Rect.block (s := S4096x768) S2048x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x768.size a ≤ S6400x768.size a
  hwx0_1 : ∀ i : grid0.Coords, EltTy.bits .bf16 = 32 ∨ (Rect.block (s := S6400x768) S640x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .f32 = 32 ∨ (Rect.block (s := S4096x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x640.size a ≤ S1x6400.size a
  hwx0_3 : ∀ i : grid0.Coords, EltTy.bits .f32 = 32 ∨ (Rect.block (s := S1x6400) S1x640.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x640.size a ≤ S4096x6400.size a
  hwx0_4 : ∀ i : grid0.Coords, EltTy.bits .f32 = 32 ∨ (Rect.block (s := S4096x6400) S2048x640.size (cc0_transform_4 i) (hinb0_4 i)).WholeWords (EltTy.packing .f32)

variable [Facts₀]

def dot_S2048x768_S640x768_S2048x640_1_1_0_0_n_n : DotDims S2048x768 S640x768 S2048x640 where
  lhsContracting := [1]
  rhsContracting := [1]
  lhsNonContracting := [0]
  rhsNonContracting := [0]
  lhsBatch := []
  rhsBatch := []
  wf := dot_S2048x768_S640x768_S2048x640_1_1_0_0_n_n_wf

abbrev win0_0 : Pipeline.Window sig grid0 :=
  Pipeline.Window.ofSpec (Memref.whole main_v7) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S640x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x640.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2048x640.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x768 : Shape := ⟨2, ![4096, 768]⟩
abbrev S100x64x768 : Shape := ⟨3, ![100, 64, 768]⟩
abbrev S_ : Shape := ⟨0, ![]⟩
abbrev S4096 : Shape := ⟨1, ![4096]⟩
abbrev S100x64 : Shape := ⟨2, ![100, 64]⟩
abbrev S4096x100x64 : Shape := ⟨3, ![4096, 100, 64]⟩
abbrev S4096x1x1 : Shape := ⟨3, ![4096, 1, 1]⟩
abbrev S1x100x64 : Shape := ⟨3, ![1, 100, 64]⟩

abbrev nBuf : Space → Nat
  | .hbm => 22
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S100x64x768, .f32⟩
  | .hbm, ⟨2, _⟩ => ⟨S4096x768, .f32⟩
  | .hbm, ⟨3, _⟩ => ⟨S_, .f32⟩
  | .hbm, ⟨4, _⟩ => ⟨S4096, .f32⟩
  | .hbm, ⟨5, _⟩ => ⟨S100x64x768, .f32⟩
  | .hbm, ⟨6, _⟩ => ⟨S_, .f32⟩
  | .hbm, ⟨7, _⟩ => ⟨S100x64, .f32⟩
  | .hbm, ⟨8, _⟩ => ⟨S4096x100x64, .f32⟩
  | .hbm, ⟨9, _⟩ => ⟨S4096x1x1, .f32⟩
  | .hbm, ⟨10, _⟩ => ⟨S1x100x64, .f32⟩
  | .hbm, ⟨11, _⟩ => ⟨S4096x100x64, .f32⟩
  | .hbm, ⟨12, _⟩ => ⟨S4096x100x64, .f32⟩
  | .hbm, ⟨13, _⟩ => ⟨S4096x100x64, .f32⟩
  | .hbm, ⟨14, _⟩ => ⟨S_, .f32⟩
  | .hbm, ⟨15, _⟩ => ⟨S4096x100x64, .f32⟩
  | .hbm, ⟨16, _⟩ => ⟨S4096x100x64, .f32⟩
  | .hbm, ⟨17, _⟩ => ⟨S4096x100x64, .f32⟩
  | .hbm, ⟨18, _⟩ => ⟨S_, .f32⟩
  | .hbm, ⟨19, _⟩ => ⟨S4096x100x64, .f32⟩
  | .hbm, ⟨20, _⟩ => ⟨S4096x100x64, .f32⟩
  | .hbm, ⟨21, _⟩ => ⟨S4096x100x64, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S4096x768_S4096_d1 : S4096x768.ReducesTo [1] S4096
  h_S_ : 0 < S_.numel
  reducesTo_S100x64x768_S100x64_d2 : S100x64x768.ReducesTo [2] S100x64
  bcast_S4096_S4096x1x1_0 : S4096.BroadcastsInDim S4096x1x1 (![0] : Fin 1 → Fin S4096x1x1.rank)
  bcast_S100x64_S1x100x64_1_2 : S100x64.BroadcastsInDim S1x100x64 (![1, 2] : Fin 2 → Fin S1x100x64.rank)
  bcast_S4096x1x1_S4096x100x64_0_1_2 : S4096x1x1.BroadcastsInDim S4096x100x64 (![0, 1, 2] : Fin 3 → Fin S4096x100x64.rank)
  bcast_S1x100x64_S4096x100x64_0_1_2 : S1x100x64.BroadcastsInDim S4096x100x64 (![0, 1, 2] : Fin 3 → Fin S4096x100x64.rank)
  bcast_S_S4096x100x64 : S_.BroadcastsInDim S4096x100x64 (![] : Fin 0 → Fin S4096x100x64.rank)
  dot_S4096x768_S100x64x768_S4096x100x64_1_2_0_01_n_n_wf : DotDims.WF S4096x768 S100x64x768 S4096x100x64 [1] [2] [0] [0, 1] [] []

variable [Facts₀]

def dot_S4096x768_S100x64x768_S4096x100x64_1_2_0_01_n_n : DotDims S4096x768 S100x64x768 S4096x100x64 where
  lhsContracting := [1]
  rhsContracting := [2]
  lhsNonContracting := [0]
  rhsNonContracting := [0, 1]
  lhsBatch := []
  rhsBatch := []
  wf := dot_S4096x768_S100x64x768_S4096x100x64_1_2_0_01_n_n_wf

class Facts : Prop extends Facts₀ where

variable [Facts]
-- ==== Proof.Dist.lean ====
/-
  The mathematics of this certificate, free of any program: pairwise Euclidean distance between the rows of
  `x : [4096, 768]` and the `6400 = 100 · 64` anchor rows of length 768, by the expansion
  `‖x_b − a_n‖² = ‖x_b‖² + ‖a_n‖² − 2 ⟨x_b, a_n⟩`, clamped below at zero and square-rooted, on the extended reals.
  Each of the three sums runs over the 768 coordinates of a row; the two squared norms start from the float zero
  the programs start them from. The anchors appear twice: as the rank-3 array `[100, 64, 768]` (`dist`) and
  flattened row-major to `[6400, 768]` (`distFlat`); `distFlat_flatten` says the two agree when row `n = 64 c + r`
  of the flat array is row `(c, r)` of the rank-3 one.
-/
import Idealize.ShloMosaic.PureOps.Ideal
import Idealize.ShloMosaic.Lib.ValueIdx

noncomputable section

namespace Cert.PairDist

open Idealize.ShloMosaic Idealize.ShloMosaic.ValueIdx

/-- The float zero both squared norms are accumulated from. -/
abbrev zero32 : EReal := Ideal.ofBits .f32 0x00000000#32

/-- One entry from its three sums: `√ max (‖x‖² + ‖a‖² − 2 ⟨x, a⟩) 0`. -/
def entry (xx aa xa : EReal) : EReal :=
  Ideal.sqrt (max (xx + aa - Ideal.ofBits .f32 0x40000000#32 * xa) (Ideal.ofBits .f32 0x00000000#32))

/-- Entry `(b, n)` against the anchors flattened to `[6400, 768]`. -/
def distFlat (x : (⟨2, ![4096, 768]⟩ : Shape).Idx → EReal) (af : (⟨2, ![6400, 768]⟩ : Shape).Idx → EReal)
    (b : Fin 4096) (n : Fin 6400) : EReal :=
  entry (zero32 + ∑ k : Fin 768, x (ix2 b k) * x (ix2 b k)) (zero32 + ∑ k : Fin 768, af (ix2 n k) * af (ix2 n k))
    (∑ k : Fin 768, x (ix2 b k) * af (ix2 n k))

/-- Entry `(b, c, r)` against the anchors as `[100, 64, 768]`. -/
def dist (x : (⟨2, ![4096, 768]⟩ : Shape).Idx → EReal) (a : (⟨3, ![100, 64, 768]⟩ : Shape).Idx → EReal)
    (b : Fin 4096) (c : Fin 100) (r : Fin 64) : EReal :=
  entry (zero32 + ∑ k : Fin 768, x (ix2 b k) * x (ix2 b k)) (zero32 + ∑ k : Fin 768, a (ix3 c r k) * a (ix3 c r k))
    (∑ k : Fin 768, x (ix2 b k) * a (ix3 c r k))

/-- The whole `[4096, 100, 64]` array of distance entries. -/
def distArray (x : (⟨2, ![4096, 768]⟩ : Shape).Idx → EReal) (a : (⟨3, ![100, 64, 768]⟩ : Shape).Idx → EReal) :
    (⟨3, ![4096, 100, 64]⟩ : Shape).Idx → EReal :=
  fun i => dist x a ⟨(i 0).val, (i 0).isLt⟩ ⟨(i 1).val, (i 1).isLt⟩ ⟨(i 2).val, (i 2).isLt⟩

/-- If flat row `n` is anchor row `(c, r)`, coordinate by coordinate, the flat entry is the rank-3 entry. -/
theorem distFlat_flatten (x : (⟨2, ![4096, 768]⟩ : Shape).Idx → EReal) (af : (⟨2, ![6400, 768]⟩ : Shape).Idx → EReal)
    (a : (⟨3, ![100, 64, 768]⟩ : Shape).Idx → EReal) (b : Fin 4096) (n : Fin 6400) (c : Fin 100) (r : Fin 64)
    (h : ∀ k : Fin 768, af (ix2 n k) = a (ix3 c r k)) : distFlat x af b n = dist x a b c r := by
  unfold distFlat dist
  simp only [h]

end Cert.PairDist

end
-- ==== Proof.RefValue.lean ====
/-
  The reference program's result, read entry by entry: at `(b, c, r)` it is `√ max (‖x_b‖² + ‖a_{c,r}‖² − 2 ⟨x_b, a_{c,r}⟩) 0`,
  the two squared norms host sums over the last axis started at the float zero and broadcast along the other axes,
  the inner product the host's contraction over the last axis of both operands.
-/
import proofs.«100976_j47132971106494_2_alg».proof.Proof.Gen.ReferenceIdeal.Read
import proofs.«100976_j47132971106494_2_alg».proof.Proof.Dist

noncomputable section

namespace Cert.ReferenceIdeal.RefValue

open Cert.ReferenceIdeal Cert.ReferenceIdeal.Gen Cert.ReferenceIdeal.Read Idealize.ShloMosaic Idealize.ShloMosaic.ValueIdx
open Cert.PairDist

/-- The reference's last stage at `(b, c, r)` is the distance entry of its two arguments. -/
theorem result_apply (x : (⟨S4096x768, .f32⟩ : BufTy).Contents (Elt Ideal)) (a : (⟨S100x64x768, .f32⟩ : BufTy).Contents (Elt Ideal))
    (b : Fin 4096) (c : Fin 100) (r : Fin 64) :
    val_main_v15 (F := Ideal) x a (ix3 b c r) = dist x a b c r := by
  -- the rows the broadcasts and the sums read: row `b` of `x`, row `(c, r)` of the anchors
  have ex : ∀ k : Fin 768, idx_main_v1 (idx_main_v5 (idx_main_v7 (ix3 b c r))) k = ix2 b k := fun k =>
    funext fun d => Fin.ext (by match d with | ⟨0, _⟩ => rfl | ⟨1, _⟩ => rfl)
  have ea : ∀ k : Fin 768, idx_main_v3 (idx_main_v6 (idx_main_v8 (ix3 b c r))) k = ix3 c r k := fun k =>
    funext fun d => Fin.ext (by match d with | ⟨0, _⟩ => rfl | ⟨1, _⟩ => rfl | ⟨2, _⟩ => rfl)
  have el : ∀ k : Fin 768, lidx_main_v4 (ix3 b c r) k = ix2 b k := fun k =>
    funext fun d => Fin.ext (by match d with | ⟨0, _⟩ => rfl | ⟨1, _⟩ => rfl)
  have er : ∀ k : Fin 768, ridx_main_v4 (ix3 b c r) k = ix3 c r k := fun k =>
    funext fun d => Fin.ext (by match d with | ⟨0, _⟩ => rfl | ⟨1, _⟩ => rfl | ⟨2, _⟩ => rfl)
  rw [val_main_v15_apply, val_main_v14_apply, val_main_v12_apply, val_main_v9_apply, val_main_v7_apply, val_main_v5_apply,
    val_main_v1_apply, val_main_v8_apply, val_main_v6_apply, val_main_v3_apply, val_main_v11_apply, val_main_v10_apply,
    val_main_cst_1_apply, val_main_v4_apply, val_main_v13_apply, val_main_cst_2_apply]
  simp only [val_main_v0_apply, val_main_v2_apply, val_main_cst_apply, val_main_cst_0_apply, ex, ea, el, er,
    Ideal.hostUnary_sqrt_def, Ideal.maximumf_def, Ideal.subf_def, Ideal.addf_def, Ideal.mulf_def, Ideal.ofBits_def]
  rfl

/-- So the reference's result array is the array of distance entries. -/
theorem result_eq (x : (⟨S4096x768, .f32⟩ : BufTy).Contents (Elt Ideal)) (a : (⟨S100x64x768, .f32⟩ : BufTy).Contents (Elt Ideal)) :
    val_main_v15 (F := Ideal) x a = distArray x a := by
  funext i
  obtain ⟨b, c, r, rfl⟩ : ∃ (b : Fin 4096) (c : Fin 100) (r : Fin 64), i = ix3 b c r := ⟨i 0, i 1, i 2, eq_ix3 i⟩
  exact result_apply x a b c r

end Cert.ReferenceIdeal.RefValue

end
-- ==== Proof.Entry.lean ====
/-
  The four arrays the kernel's region reads, as the host lines before it leave them, read at an index: `x` and the
  anchors flattened row-major to `[6400, 768]` (both through a change of float format, the identity on extended
  reals), and the two squared-norm arrays — `[4096, 1]` at `(b, 0)` the float zero plus the sum over `k` of `x (b, k)²`,
  `[1, 6400]` at `(0, n)` the same of flat anchor row `n`.
-/
import proofs.«100976_j47132971106494_2_alg».proof.Proof.Gen.KernelIdeal.Frame
import proofs.«100976_j47132971106494_2_alg».proof.Proof.Dist
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.PairDist

variable (m : (ℓ : Loc nD τ sig) → Buf (Elt Ideal) ℓ)

/-- The two argument arrays as launched, as functions of an index. -/
abbrev xArg (c : Dev nD) : S4096x768.Idx → EReal := m ((c : Thread nD τ).loc main_arg0)
abbrev aArg (c : Dev nD) : S100x64x768.Idx → EReal := m ((c : Thread nD τ).loc main_arg1)

/-- The anchors argument flattened row-major to `[6400, 768]`. -/
def flat (c : Dev nD) : S6400x768.Idx → EReal :=
  shapeCast S6400x768 (aArg m c) shapeCasts_S100x64x768_S6400x768

/-- Flat row `64 c' + r` is anchor row `(c', r)`: the two indices have the same row-major position. -/
theorem flat_apply (c : Dev nD) (n : Fin 6400) (c' : Fin 100) (r : Fin 64) (hn : n.val = c'.val * 64 + r.val) (k : Fin 768) :
    flat m c (ix2 n k) = aArg m c (ix3 c' r k) := by
  unfold flat
  refine shapeCast_apply _ _ (ix2 n k) (ix3 c' r k) ?_
  rw [Shape.rowMajor_val_three, Shape.rowMajor_val_two]
  show (c'.val * 64 + r.val) * 768 + k.val = n.val * 768 + k.val
  rw [hn]

/-! ## The arrays at region entry, as terms of the arguments -/

theorem x_entry (c : Dev nD) :
    (V m c main_v7 : S4096x768.Idx → EReal) = truncf (F := Ideal) .bf16 (xArg m c) bitsLt_bf16_f32 := by
  show StableHlo.after hostOps0 (fun b => m (c, b)) (Proc.devRef .tc main_v7) = _
  after_results

theorem anchors_entry (c : Dev nD) :
    (V m c main_v8 : S6400x768.Idx → EReal) = truncf (F := Ideal) .bf16 (flat m c) bitsLt_bf16_f32 := by
  show StableHlo.after hostOps0 (fun b => m (c, b)) (Proc.devRef .tc main_v8) = _
  after_results
  rfl

theorem xnorm_entry (c : Dev nD) :
    (V m c main_v3 : S4096x1.Idx → EReal) = broadcastInDim S4096x1 ![0] bcast_S4096_S4096x1_0
      (Host.reduceAdd (F := Ideal) (mulf (F := Ideal) (xArg m c) (xArg m c))
        (constant (F := Ideal) S_ .f32 0x00000000#32) reducesTo_S4096x768_S4096_d1 h_S_) := by
  show StableHlo.after hostOps0 (fun b => m (c, b)) (Proc.devRef .tc main_v3) = _
  after_results

theorem anorm_entry (c : Dev nD) :
    (V m c main_v6 : S1x6400.Idx → EReal) = broadcastInDim S1x6400 ![1] bcast_S6400_S1x6400_1
      (Host.reduceAdd (F := Ideal) (mulf (F := Ideal) (flat m c) (flat m c))
        (constant (F := Ideal) S_ .f32 0x00000000#32) reducesTo_S6400x768_S6400_d1 h_S_) := by
  show StableHlo.after hostOps0 (fun b => m (c, b)) (Proc.devRef .tc main_v6) = _
  after_results
  rfl

/-! ## Read at an index -/

theorem x_entry_apply (c : Dev nD) (i : S4096x768.Idx) :
    (V m c main_v7 : S4096x768.Idx → EReal) i = xArg m c i := by
  rw [x_entry]; rfl

theorem anchors_entry_apply (c : Dev nD) (i : S6400x768.Idx) :
    (V m c main_v8 : S6400x768.Idx → EReal) i = flat m c i := by
  rw [anchors_entry]; rfl

/-- A host sum of squares over the last axis of a `[4096, 768]` array, at row `b`. -/
theorem rowsq_x (y : S4096x768.Idx → EReal) (b : Fin 4096) :
    Host.reduceAdd (F := Ideal) (mulf y y) (constant (F := Ideal) S_ .f32 0x00000000#32) reducesTo_S4096x768_S4096_d1 h_S_ (ix1 b)
      = zero32 + ∑ k : Fin 768, y (ix2 b k) * y (ix2 b k) := by
  generalize hy : mulf (F := Ideal) y y = yy
  simp only [Host.reduceAdd, Ideal.hostReduceAdd_def]
  rw [Ideal.hostReduceAdd_single reducesTo_S4096x768_S4096_d1 (by decide)]
  refine congrArg (_ + ·) (Finset.sum_congr rfl fun k _ => ?_)
  subst hy
  exact congrArg (fun i => y i * y i) (funext fun a => Fin.ext (by match a with | ⟨0, _⟩ => rfl | ⟨1, _⟩ => rfl))

/-- The same over a `[6400, 768]` array, at row `n`. -/
theorem rowsq_a (y : S6400x768.Idx → EReal) (n : Fin 6400) :
    Host.reduceAdd (F := Ideal) (mulf y y) (constant (F := Ideal) S_ .f32 0x00000000#32) reducesTo_S6400x768_S6400_d1 h_S_ (ix1 n)
      = zero32 + ∑ k : Fin 768, y (ix2 n k) * y (ix2 n k) := by
  generalize hy : mulf (F := Ideal) y y = yy
  simp only [Host.reduceAdd, Ideal.hostReduceAdd_def]
  rw [Ideal.hostReduceAdd_single reducesTo_S6400x768_S6400_d1 (by decide)]
  refine congrArg (_ + ·) (Finset.sum_congr rfl fun k _ => ?_)
  subst hy
  exact congrArg (fun i => y i * y i) (funext fun a => Fin.ext (by match a with | ⟨0, _⟩ => rfl | ⟨1, _⟩ => rfl))

theorem xnorm_entry_apply (c : Dev nD) (b : Fin 4096) :
    (V m c main_v3 : S4096x1.Idx → EReal) (ix2 b (0 : Fin 1))
      = zero32 + ∑ k : Fin 768, xArg m c (ix2 b k) * xArg m c (ix2 b k) := by
  rw [xnorm_entry]
  refine (broadcastInDim_apply _ bcast_S4096_S4096x1_0 _ (ix2 b (0 : Fin 1)) (ix1 b) (fun a => match a with
    | ⟨0, _⟩ => by show b.val = if (4096 : Nat) = 1 then 0 else b.val; rw [if_neg (by decide)])).trans ?_
  exact rowsq_x _ b

theorem anorm_entry_apply (c : Dev nD) (n : Fin 6400) :
    (V m c main_v6 : S1x6400.Idx → EReal) (ix2 (0 : Fin 1) n)
      = zero32 + ∑ k : Fin 768, flat m c (ix2 n k) * flat m c (ix2 n k) := by
  rw [anorm_entry]
  refine (broadcastInDim_apply _ bcast_S6400_S1x6400_1 _ (ix2 (0 : Fin 1) n) (ix1 n) (fun a => match a with
    | ⟨0, _⟩ => by show n.val = if (6400 : Nat) = 1 then 0 else n.val; rw [if_neg (by decide)])).trans ?_
  exact rowsq_a _ n

end Cert.KernelIdeal.Entry

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.Payload.lean ====
/-
  What the kernel body stores, read at one entry of its `[2048, 640]` block: from the block's row `p` of `x`, row `q`
  of the flattened anchors, the squared norm of the first at `(p, 0)` and of the second at `(0, q)`, the value
  `√ max (‖x_p‖² + ‖a_q‖² − 2 ⟨x_p, a_q⟩) 0`; the inner product is the matrix product into a zero accumulator,
  contracting the last axis of both operands.
-/
import proofs.«100976_j47132971106494_2_alg».proof.Proof.Gen.KernelIdeal.Skeleton
import proofs.«100976_j47132971106494_2_alg».proof.Proof.Dist
import proofs.«100976_j47132971106494_2_alg».proof.Proof.LibColBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.PairDist Cert.LibColBroadcast

/-! ## The product's operand indices: output `(p, q)`, contraction coordinate `k` ↦ `(p, k)` and `(q, k)` -/

theorem lhs_row (i : S2048x640.Idx) (s : dot_S2048x768_S640x768_S2048x640_1_1_0_0_n_n.contr.Idx) : (dot_S2048x768_S640x768_S2048x640_1_1_0_0_n_n.lhsIdx i s 0).val = (i 0).val := by
  unfold DotDims.lhsIdx
  rw [dif_neg (show ¬(0 : Fin S2048x768.rank) ∈ dot_S2048x768_S640x768_S2048x640_1_1_0_0_n_n.lhsBatch by decide), dif_pos (show (0 : Fin S2048x768.rank) ∈ dot_S2048x768_S640x768_S2048x640_1_1_0_0_n_n.lhsNonContracting by decide)]
  rfl
theorem lhs_col (i : S2048x640.Idx) (s : dot_S2048x768_S640x768_S2048x640_1_1_0_0_n_n.contr.Idx) : (dot_S2048x768_S640x768_S2048x640_1_1_0_0_n_n.lhsIdx i s 1).val = (s ⟨0, by decide⟩).val :=
  dot_S2048x768_S640x768_S2048x640_1_1_0_0_n_n.lhsIdx_val_of_single rfl i s
theorem rhs_row (i : S2048x640.Idx) (s : dot_S2048x768_S640x768_S2048x640_1_1_0_0_n_n.contr.Idx) : (dot_S2048x768_S640x768_S2048x640_1_1_0_0_n_n.rhsIdx i s 0).val = (i 1).val := by
  unfold DotDims.rhsIdx
  rw [dif_neg (show ¬(0 : Fin S640x768.rank) ∈ dot_S2048x768_S640x768_S2048x640_1_1_0_0_n_n.rhsBatch by decide), dif_pos (show (0 : Fin S640x768.rank) ∈ dot_S2048x768_S640x768_S2048x640_1_1_0_0_n_n.rhsNonContracting by decide)]
  rfl
theorem rhs_col (i : S2048x640.Idx) (s : dot_S2048x768_S640x768_S2048x640_1_1_0_0_n_n.contr.Idx) : (dot_S2048x768_S640x768_S2048x640_1_1_0_0_n_n.rhsIdx i s 1).val = (s ⟨0, by decide⟩).val :=
  dot_S2048x768_S640x768_S2048x640_1_1_0_0_n_n.rhsIdx_val_of_single rfl i s

/-- The block's matrix product at `(p, q)`: the sum over the 768 coordinates of row `p` times row `q`. -/
theorem product_apply (X0 : FVec Ideal S2048x768 .bf16) (X1 : FVec Ideal S640x768 .bf16) (p : Fin 2048) (q : Fin 640) :
    matmul dot_S2048x768_S640x768_S2048x640_1_1_0_0_n_n none X0 X1 (constant (F := Ideal) S2048x640 .f32 0x00000000#32) (ix2 p q)
      = ∑ k : Fin 768, X0 (ix2 p k) * X1 (ix2 q k) := by
  simp only [matmul]
  rw [Ideal.matmul_constant_zero_apply, ← Equiv.sum_comp (contrEquiv1 dot_S2048x768_S640x768_S2048x640_1_1_0_0_n_n 768 rfl rfl).symm]
  refine Finset.sum_congr rfl fun k _ => ?_
  have hk := contrEquiv1_symm_val dot_S2048x768_S640x768_S2048x640_1_1_0_0_n_n 768 rfl rfl k
  have el : dot_S2048x768_S640x768_S2048x640_1_1_0_0_n_n.lhsIdx (ix2 p q) ((contrEquiv1 dot_S2048x768_S640x768_S2048x640_1_1_0_0_n_n 768 rfl rfl).symm k) = ix2 p k := funext fun a => Fin.ext (by
    match a with
    | ⟨0, _⟩ => exact lhs_row _ _
    | ⟨1, _⟩ => exact (lhs_col _ _).trans hk)
  have er : dot_S2048x768_S640x768_S2048x640_1_1_0_0_n_n.rhsIdx (ix2 p q) ((contrEquiv1 dot_S2048x768_S640x768_S2048x640_1_1_0_0_n_n 768 rfl rfl).symm k) = ix2 q k := funext fun a => Fin.ext (by
    match a with
    | ⟨0, _⟩ => exact rhs_row _ _
    | ⟨1, _⟩ => exact (rhs_col _ _).trans hk)
  rw [el, er]

/-- The stored value at `(p, q)` of the block. -/
theorem stored_apply (X0 : Vec Ideal S2048x768 .bf16) (X1 : Vec Ideal S640x768 .bf16) (X2 : Vec Ideal S2048x1 .f32) (X3 : Vec Ideal S1x640 .f32)
    (p : Fin 2048) (q : Fin 640) :
    k0_pay1 (F := Ideal) X0 X1 X2 X3 (ix2 p q)
      = entry (X2 (ix2 p (0 : Fin 1))) (X3 (ix2 (0 : Fin 1) q)) (∑ k : Fin 768, X0 (ix2 p k) * X1 (ix2 q k)) := by
  unfold k0_pay1
  simp only [shapeCast_self]
  show Ideal.sqrt (max (broadcastTo S2048x640 X2 broadcasts_S2048x1_S2048x640 (ix2 p q)
        + broadcastTo S2048x640 X3 broadcasts_S1x640_S2048x640 (ix2 p q)
        - Ideal.ofBits .f32 0x40000000#32
          * matmul dot_S2048x768_S640x768_S2048x640_1_1_0_0_n_n none X0 X1 (constant (F := Ideal) S2048x640 .f32 0x00000000#32) (ix2 p q))
      (Ideal.ofBits .f32 0x00000000#32)) = _
  rw [broadcastTo_a1_ab_apply X2 broadcasts_S2048x1_S2048x640 p q, broadcastTo_1b_ab_apply X3 broadcasts_S1x640_S2048x640 p q,
    product_apply X0 X1 p q]
  rfl

end Cert.KernelIdeal.Body

end
-- ==== Proof.Blocks.lean ====
/-
  From blocks to the array. The kernel's grid is `2 × 10`; point `t` with block coordinates `(i, j)` reads rows
  `2048 i … 2048 i + 2047` of `x` and of the `[4096, 1]` squared norms, rows `640 j … 640 j + 639` of the flattened anchors
  and columns `640 j …` of the `[1, 6400]` squared norms, and writes the `2048 × 640` block `(i, j)` of the `[4096, 6400]`
  result. Entry `(p, q)` of what it writes is the distance entry `(2048 i + p, 640 j + q)`; the twenty blocks tile the
  array, so the array ends holding the distance entries against the flattened anchors.
-/
import proofs.«100976_j47132971106494_2_alg».proof.Proof.Gen.KernelIdeal.Frame
import proofs.«100976_j47132971106494_2_alg».proof.Proof.Dist
import proofs.«100976_j47132971106494_2_alg».proof.Proof.Payload
import proofs.«100976_j47132971106494_2_alg».proof.Proof.Entry
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.PairDist Cert.KernelIdeal.Entry Cert.KernelIdeal.Body

variable (m : (ℓ : Loc nD τ sig) → Buf (Elt Ideal) ℓ)

theorem zero_offsets : (![0, 0] : Fin 2 → Nat) = fun _ => 0 := funext fun a => by fin_cases a <;> rfl

/-- The `[4096, 6400]` array of distance entries against the flattened anchors. -/
def flatResult (c : Dev nD) : S4096x6400.Idx → EReal := fun i =>
  distFlat (xArg m c) (flat m c) ⟨(i 0).val, idx2_lt0 i⟩ ⟨(i 1).val, idx2_lt1 i⟩

/-- The printed index maps over the twenty points: the row operands move with the result's block row, the column
    operands with its block column, and the block coordinates stay inside `2 × 10`. -/
theorem index_facts : ∀ t : Fin cfg0.N, win0_0.index t (0 : Fin 2) = win0_4.index t (0 : Fin 2)
    ∧ win0_0.index t (1 : Fin 2) = 0
    ∧ win0_1.index t (0 : Fin 2) = win0_4.index t (1 : Fin 2)
    ∧ win0_1.index t (1 : Fin 2) = 0
    ∧ win0_2.index t (0 : Fin 2) = win0_4.index t (0 : Fin 2)
    ∧ win0_2.index t (1 : Fin 2) = 0
    ∧ win0_3.index t (0 : Fin 2) = 0
    ∧ win0_3.index t (1 : Fin 2) = win0_4.index t (1 : Fin 2)
    ∧ win0_4.index t (0 : Fin 2) ≤ 1
    ∧ win0_4.index t (1 : Fin 2) ≤ 9 :=
  (by decide +kernel : ∀ t : Fin grid0.N, _)

/-- Every block of the `2 × 10` tiling is some point's. -/
theorem index_onto : ∀ (q0 : Fin 2) (q1 : Fin 10), ∃ t : Fin cfg0.N, win0_4.index t = ![q0.val, q1.val] :=
  (by decide +kernel : ∀ (q0 : Fin 2) (q1 : Fin 10), ∃ t : Fin grid0.N, win0_4.index t = ![q0.val, q1.val])

/-! ## Each input block is its array read where the result's block says -/

theorem xblock_apply (c : Dev nD) (t : Fin cfg0.N) (p : Fin 2048) (k : Fin 768) (b : Fin 4096)
    (hb : b.val = win0_4.index t (0 : Fin 2) * 2048 + p.val) :
    (iblk m c 0 t : Vec Ideal S2048x768 .bf16) (ix2 p k) = xArg m c (ix2 b k) := by
  obtain ⟨e00, e01, -⟩ := index_facts t
  refine Eq.trans ?_ (x_entry_apply m c (ix2 b k))
  show V m c main_v7 (((cfg0.win 0).blk t).view.emb (ix2 p k)) = V m c main_v7 (ix2 b k)
  refine congrArg (V m c main_v7) (funext fun a => Fin.ext ?_)
  match a with
  | ⟨0, _⟩ => show win0_0.index t (0 : Fin 2) * 2048 + 1 * p.val = b.val; omega
  | ⟨1, _⟩ => show win0_0.index t (1 : Fin 2) * 768 + 1 * k.val = k.val; omega

theorem ablock_apply (c : Dev nD) (t : Fin cfg0.N) (q : Fin 640) (k : Fin 768) (n : Fin 6400)
    (hn : n.val = win0_4.index t (1 : Fin 2) * 640 + q.val) :
    (iblk m c 1 t : Vec Ideal S640x768 .bf16) (ix2 q k) = flat m c (ix2 n k) := by
  obtain ⟨-, -, e10, e11, -⟩ := index_facts t
  refine Eq.trans ?_ (anchors_entry_apply m c (ix2 n k))
  show V m c main_v8 (((cfg0.win 1).blk t).view.emb (ix2 q k)) = V m c main_v8 (ix2 n k)
  refine congrArg (V m c main_v8) (funext fun a => Fin.ext ?_)
  match a with
  | ⟨0, _⟩ => show win0_1.index t (0 : Fin 2) * 640 + 1 * q.val = n.val; omega
  | ⟨1, _⟩ => show win0_1.index t (1 : Fin 2) * 768 + 1 * k.val = k.val; omega

theorem xnormblock_apply (c : Dev nD) (t : Fin cfg0.N) (p : Fin 2048) (b : Fin 4096)
    (hb : b.val = win0_4.index t (0 : Fin 2) * 2048 + p.val) :
    (iblk m c 2 t : Vec Ideal S2048x1 .f32) (ix2 p (0 : Fin 1))
      = zero32 + ∑ k : Fin 768, xArg m c (ix2 b k) * xArg m c (ix2 b k) := by
  obtain ⟨-, -, -, -, e20, e21, -⟩ := index_facts t
  refine Eq.trans ?_ (xnorm_entry_apply m c b)
  show V m c main_v3 (((cfg0.win 2).blk t).view.emb (ix2 p (0 : Fin 1))) = V m c main_v3 (ix2 b (0 : Fin 1))
  refine congrArg (V m c main_v3) (funext fun a => Fin.ext ?_)
  match a with
  | ⟨0, _⟩ => show win0_2.index t (0 : Fin 2) * 2048 + 1 * p.val = b.val; omega
  | ⟨1, _⟩ => show win0_2.index t (1 : Fin 2) * 1 + 1 * 0 = 0; omega

theorem anormblock_apply (c : Dev nD) (t : Fin cfg0.N) (q : Fin 640) (n : Fin 6400)
    (hn : n.val = win0_4.index t (1 : Fin 2) * 640 + q.val) :
    (iblk m c 3 t : Vec Ideal S1x640 .f32) (ix2 (0 : Fin 1) q)
      = zero32 + ∑ k : Fin 768, flat m c (ix2 n k) * flat m c (ix2 n k) := by
  obtain ⟨-, -, -, -, -, -, e30, e31, -⟩ := index_facts t
  refine Eq.trans ?_ (anorm_entry_apply m c n)
  show V m c main_v6 (((cfg0.win 3).blk t).view.emb (ix2 (0 : Fin 1) q)) = V m c main_v6 (ix2 (0 : Fin 1) n)
  refine congrArg (V m c main_v6) (funext fun a => Fin.ext ?_)
  match a with
  | ⟨0, _⟩ => show win0_3.index t (0 : Fin 2) * 1 + 1 * 0 = 0; omega
  | ⟨1, _⟩ => show win0_3.index t (1 : Fin 2) * 640 + 1 * q.val = n.val; omega

/-! ## What a point writes back -/

/-- The stored value over blocks known row by row: it is the distance entry of those rows. -/
theorem stored_is_entry (X0 : Vec Ideal S2048x768 .bf16) (X1 : Vec Ideal S640x768 .bf16) (X2 : Vec Ideal S2048x1 .f32) (X3 : Vec Ideal S1x640 .f32)
    (x : (⟨2, ![4096, 768]⟩ : Shape).Idx → EReal) (af : (⟨2, ![6400, 768]⟩ : Shape).Idx → EReal)
    (p : Fin 2048) (q : Fin 640) (b : Fin 4096) (n : Fin 6400)
    (h0 : ∀ k : Fin 768, X0 (ix2 p k) = x (ix2 b k)) (h1 : ∀ k : Fin 768, X1 (ix2 q k) = af (ix2 n k))
    (h2 : X2 (ix2 p (0 : Fin 1)) = zero32 + ∑ k : Fin 768, x (ix2 b k) * x (ix2 b k))
    (h3 : X3 (ix2 (0 : Fin 1) q) = zero32 + ∑ k : Fin 768, af (ix2 n k) * af (ix2 n k)) :
    k0_pay1 (F := Ideal) X0 X1 X2 X3 (ix2 p q) = distFlat x af b n := by
  rw [stored_apply, h2, h3]
  simp only [h0, h1]
  rfl

/-- Point `t` writes back block `t` of the distance array. -/
theorem flushed_eq (c : Dev nD) (t : Fin cfg0.N) :
    (dats m 0 c).flushed 4 t = ((cfg0.win 4).blk t).view.read (Elt Ideal) (flatResult m c) := by
  show (cfg0.win 4).cut (grid0.coords t) ((dats m 0 c).after 4 t) = _
  rw [after0_4]
  unfold out0_4
  rw [View.canon_unit_zero zero_offsets]
  simp only [View.ld_unit_zero (S := S2048x768) zero_offsets, View.ld_unit_zero (S := S640x768) zero_offsets,
    View.ld_unit_zero (S := S2048x1) zero_offsets, View.ld_unit_zero (S := S1x640) zero_offsets]
  obtain ⟨-, -, -, -, -, -, -, -, e40, e41⟩ := index_facts t
  funext j
  obtain ⟨p, q, rfl⟩ : ∃ (p : Fin 2048) (q : Fin 640), j = ix2 p q := ⟨j 0, j 1, eq_ix2 j⟩
  have hp : p.val < 2048 := p.isLt
  have hq : q.val < 640 := q.isLt
  show k0_pay1 (F := Ideal) (iblk m c 0 t) (iblk m c 1 t) (iblk m c 2 t) (iblk m c 3 t) (ix2 p q)
    = flatResult m c (((cfg0.win 4).blk t).view.emb (ix2 p q))
  refine (stored_is_entry (iblk m c 0 t) (iblk m c 1 t) (iblk m c 2 t) (iblk m c 3 t) (xArg m c) (flat m c) p q
    ⟨win0_4.index t (0 : Fin 2) * 2048 + p.val, by omega⟩ ⟨win0_4.index t (1 : Fin 2) * 640 + q.val, by omega⟩
    (fun k => xblock_apply m c t p k _ rfl) (fun k => ablock_apply m c t q k _ rfl)
    (xnormblock_apply m c t p _ rfl) (anormblock_apply m c t q _ rfl)).trans ?_
  unfold flatResult
  have r0 : ((((cfg0.win 4).blk t).view.emb (ix2 p q)) 0).val = win0_4.index t (0 : Fin 2) * 2048 + p.val := by
    show win0_4.index t (0 : Fin 2) * 2048 + 1 * p.val = _; omega
  have r1 : ((((cfg0.win 4).blk t).view.emb (ix2 p q)) 1).val = win0_4.index t (1 : Fin 2) * 640 + q.val := by
    show win0_4.index t (1 : Fin 2) * 640 + 1 * q.val = _; omega
  exact congrArg₂ (distFlat (xArg m c) (flat m c)) (Fin.ext r0.symm) (Fin.ext r1.symm)

/-- An index of the array is in point `t`'s block iff each coordinate is in the block's range on its axis. -/
theorem mem_block (t : Fin cfg0.N) (i : S4096x6400.Idx) :
    i ∈ ((cfg0.win 4).blk t).view.set ↔ ∀ a : Fin 2, win0_4.index t a * S2048x640.size a ≤ (i a).val ∧ (i a).val < win0_4.index t a * S2048x640.size a + S2048x640.size a := by
  show i ∈ ((View.whole main_v9).slice (win0_4.rect t)).set ↔ _
  rw [View.set_slice_whole, Rect.mem_set_unit]
  exact Iff.rfl

/-- The twenty blocks tile the array: entry `(r, s)` is in the block of coordinates `(r / 2048, s / 640)`. -/
theorem covered (i : S4096x6400.Idx) :
    ∃ t : Fin cfg0.N, (cfg0.win 4).flush t = true ∧ i ∈ ((cfg0.win 4).blk t).view.set := by
  have hi0 : (i 0).val < 4096 := (i 0).isLt
  have hi1 : (i 1).val < 6400 := (i 1).isLt
  obtain ⟨t, ht⟩ := index_onto ⟨(i 0).val / 2048, by omega⟩ ⟨(i 1).val / 640, by omega⟩
  have q0 : win0_4.index t (0 : Fin 2) = (i 0).val / 2048 := congrFun ht 0
  have q1 : win0_4.index t (1 : Fin 2) = (i 1).val / 640 := congrFun ht 1
  refine ⟨t, flush0_4 t, ?_⟩
  rw [mem_block]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 640 ≤ (i 1).val ∧ (i 1).val < win0_4.index t (1 : Fin 2) * 640 + 640; omega

/-- The result array after the region holds the distance entries against the flattened anchors. -/
theorem final (c : Dev nD) : (dats m 0 c).arrAt 4 cfg0.N = flatResult m c :=
  (dats m 0 c).arrAt_eq_of_cover 4 (flatResult m c) (fun t _ => flushed_eq m c t) covered

end Cert.KernelIdeal.Blocks

end
-- ==== Proof.Result.lean ====
/-
  The kernel program's result: after the region the `[4096, 6400]` array holds the distance entries against the
  flattened anchors, and the last host line reshapes it to `[4096, 100, 64]`; entry `(b, c, r)` of the reshape is entry
  `(b, 64 c + r)` of the flat array, and flat anchor row `64 c + r` is anchor row `(c, r)`, so the result is the array of
  distance entries of the two arguments.
-/
import proofs.«100976_j47132971106494_2_alg».proof.Proof.Gen.KernelIdeal.Frame
import proofs.«100976_j47132971106494_2_alg».proof.Proof.Dist
import proofs.«100976_j47132971106494_2_alg».proof.Proof.Entry
import proofs.«100976_j47132971106494_2_alg».proof.Proof.Blocks
import Idealize.ShloMosaic.Lib.StableHlo.Run
import Idealize.ShloMosaic.Lib.Pipeline.Value
import Idealize.ShloMosaic.Lib.ValueIdx

noncomputable section

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx
open Cert.PairDist Cert.KernelIdeal.Entry Cert.KernelIdeal.Blocks

variable (m : (ℓ : Loc nD τ sig) → Buf (Elt Ideal) ℓ) (ρ : Dev nD → PrngReg)

/-- The reshape of the flat distance array, read at `(b, c', r)`. -/
theorem reshaped_apply (c : Dev nD) (b : Fin 4096) (c' : Fin 100) (r : Fin 64) :
    shapeCast S4096x100x64 (flatResult m c) shapeCasts_S4096x6400_S4096x100x64 (ix3 b c' r)
      = dist (xArg m c) (aArg m c) b c' r := by
  have hc : c'.val < 100 := c'.isLt
  have hr : r.val < 64 := r.isLt
  refine (shapeCast_apply (flatResult m c) shapeCasts_S4096x6400_S4096x100x64 (ix3 b c' r)
    (ix2 b (⟨c'.val * 64 + r.val, by omega⟩ : Fin 6400)) ?_).trans ?_
  · rw [Shape.rowMajor_val_two, Shape.rowMajor_val_three]
    show b.val * 6400 + (c'.val * 64 + r.val) = (b.val * 100 + c'.val) * 64 + r.val
    omega
  · show distFlat (xArg m c) (flat m c) b ⟨c'.val * 64 + r.val, _⟩ = _
    exact distFlat_flatten _ _ _ b _ c' r (fun k => flat_apply m c _ c' r rfl k)

/-- What the program's result buffer holds after the host line that follows the region. -/
theorem tail_eq (c : Dev nD) :
    (Pipeline.afterTail₀ cfgs (dats m) 0 (V0 m) [hostOps1] c main_v10 : S4096x100x64.Idx → EReal)
      = distArray (xArg m c) (aArg m c) := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v9)
      = flatResult m c :=
    (Pipeline.withArrays_arr spec0 launch0.win.arr_inj c _ _ 4).trans (final m c)
  rw [e]
  funext i
  obtain ⟨b, c', r, rfl⟩ : ∃ (b : Fin 4096) (c' : Fin 100) (r : Fin 64), i = ix3 b c' r := ⟨i 0, i 1, i 2, eq_ix3 i⟩
  exact reshaped_apply m c b c' r

/-- The kernel program's run, read: every weakly fair execution ends with the result buffer at the array of distance
    entries of the two arguments, and the arguments as launched. -/
theorem run : θ_run defs (onTc (τ := τ) (main (F := Ideal))) ⟨m, fun _ => 0, ρ⟩ fun r => ∀ c : Dev nD,
      r.2.mem ((c.tc : Thread nD τ).loc main_v10) = distArray (xArg m c) (aArg m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v10 (Pipeline.mem_restRefs_of main_v10 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Result

end
-- ==== Proof.lean ====
/- The proof of `Cert.Claim` (proofs.«100976_j47132971106494_2_alg».proof.Defs).
   Both idealized programs compute, for row `b` of `x : [4096, 768]` and anchor row `(c, r)` of `[100, 64, 768]`,
   `√ max (‖x_b‖² + ‖a_{c,r}‖² − 2 ⟨x_b, a_{c,r}⟩) 0` on the extended reals (Proof/Dist.lean). The reference does so on the
   rank-3 anchors directly (Proof/RefValue.lean). The kernel program flattens the anchors to `[6400, 768]`, forms the two
   squared-norm arrays on the host, computes `2048 × 640` blocks of the `[4096, 6400]` result on a `2 × 10` grid — the inner
   products as a matrix product into a zero accumulator — and reshapes to `[4096, 100, 64]` (Proof/Payload.lean: one stored
   entry; Proof/Entry.lean: the arrays the region reads; Proof/Blocks.lean: the blocks tile the array; Proof/Result.lean:
   the reshape back). The two sides are the same three sums over the same 768 coordinates, related only by the row-major
   correspondence `n = 64 c + r`; no law of arithmetic beyond that re-indexing is used, so the precondition is not opened.
   The idealization rewrote nothing, so `preserves` is trivial; the three frames are the programs' runs with the results dropped. -/
import proofs.«100976_j47132971106494_2_alg».proof.Defs
import proofs.«100976_j47132971106494_2_alg».proof.Proof.Gen.Kernel
import proofs.«100976_j47132971106494_2_alg».proof.Proof.Gen.Kernel.Frame
import proofs.«100976_j47132971106494_2_alg».proof.Proof.Gen.KernelIdeal
import proofs.«100976_j47132971106494_2_alg».proof.Proof.Gen.KernelIdeal.Frame
import proofs.«100976_j47132971106494_2_alg».proof.Proof.Gen.ReferenceIdeal
import proofs.«100976_j47132971106494_2_alg».proof.Proof.Gen.ReferenceIdeal.Run
import proofs.«100976_j47132971106494_2_alg».proof.Proof.Gen.ReferenceIdeal.Read
import proofs.«100976_j47132971106494_2_alg».proof.Proof.Gen.Pre_finite_inputs
import proofs.«100976_j47132971106494_2_alg».proof.Proof.Dist
import proofs.«100976_j47132971106494_2_alg».proof.Proof.RefValue
import proofs.«100976_j47132971106494_2_alg».proof.Proof.Result
import Idealize.ShloMosaic.Adequacy
import Idealize.ShloMosaic.Init

noncomputable section

namespace Cert.Proof

open Idealize.ShloMosaic Idealize.SL.Sem Cert.PairDist

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, both idealized programs end with the array of distance entries of those
    arguments in their result buffers. -/
theorem algebraic : Cert.algebraic_KernelIdeal_ReferenceIdeal := by
  intro m ρ m' ρ' _ hagree
  refine ⟨fun c => distArray (Cert.KernelIdeal.Entry.xArg m c) (Cert.KernelIdeal.Entry.aArg m c),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
